-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x480x480 : Shape := ⟨4, ![64, 3, 480, 480]⟩
abbrev S64 : Shape := ⟨1, ![64]⟩
abbrev S_ : Shape := ⟨0, ![]⟩

class Facts : Prop where
  bcast_S_S64x3x480x480 : S_.BroadcastsInDim S64x3x480x480 (![] : Fin 0 → Fin S64x3x480x480.rank)
  reducesTo_S64x3x480x480_S_d0_1_2_3 : S64x3x480x480.ReducesTo [0, 1, 2, 3] S_
  h_S_ : 0 < S_.numel

variable [Facts]

def fn {F : FTy → Type} [FloatOps F] (main_arg0 : FVec F S64x3x480x480 .f32) (main_arg1 : IVec S64 32) : IVec S_ 1 :=
  let main_v0 : FVec F S64x3x480x480 .f32 := Host.absf main_arg0
  let main_cst : FVec F S_ .f32 := constant S_ .f32 0x7F800000#32
  let main_v1 : FVec F S64x3x480x480 .f32 := broadcastInDim S64x3x480x480 ![] bcast_S_S64x3x480x480 main_cst
  let main_v2 : IVec S64x3x480x480 1 := cmpf .olt main_v0 main_v1
  let main_c : IVec S_ 1 := constantI S_ 1 1#1
  let main_v3 : IVec S_ 1 := (fun x v => Host.reduce IntOp.andi x v reducesTo_S64x3x480x480_S_d0_1_2_3 h_S_) main_v2 main_c
  main_v3
-- ==== Kernel.lean ====
abbrev S64x3x480x480 : Shape := ⟨4, ![64, 3, 480, 480]⟩
abbrev S64 : Shape := ⟨1, ![64]⟩
abbrev S_ : Shape := ⟨0, ![]⟩
abbrev S3 : Shape := ⟨1, ![3]⟩
abbrev S1x3 : Shape := ⟨2, ![1, 3]⟩
abbrev S64x1 : Shape := ⟨2, ![64, 1]⟩
abbrev S64x3 : Shape := ⟨2, ![64, 3]⟩
abbrev S192x230400 : Shape := ⟨2, ![192, 230400]⟩
abbrev S192x1 : Shape := ⟨2, ![192, 1]⟩
abbrev S16x115200 : Shape := ⟨2, ![16, 115200]⟩
abbrev S16x1 : Shape := ⟨2, ![16, 1]⟩
abbrev S16 : Shape := ⟨1, ![16]⟩

abbrev nBuf : Space → Nat
  | .hbm => 29
  | .vmem => 7
  | .smem => 0
  | _ => 0

abbrev bufTy : (tb : Table) → Fin (tcTables nBuf tb) → BufTy
  | .hbm, ⟨0, _⟩ => ⟨S64x3x480x480, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S3, .i32⟩
  | .hbm, ⟨6, _⟩ => ⟨S1x3, .i32⟩
  | .hbm, ⟨7, _⟩ => ⟨S64x1, .i32⟩
  | .hbm, ⟨8, _⟩ => ⟨S64x3, .i32⟩
  | .hbm, ⟨9, _⟩ => ⟨S64x3, .i32⟩
  | .hbm, ⟨10, _⟩ => ⟨S64x3, .i1⟩
  | .hbm, ⟨11, _⟩ => ⟨S64x1, .i1⟩
  | .hbm, ⟨12, _⟩ => ⟨S64x3, .i1⟩
  | .hbm, ⟨13, _⟩ => ⟨S64x3, .i1⟩
  | .hbm, ⟨14, _⟩ => ⟨S64x3, .f32⟩
  | .hbm, ⟨15, _⟩ => ⟨S192x230400, .f32⟩
  | .hbm, ⟨16, _⟩ => ⟨S192x1, .f32⟩
  | .hbm, ⟨17, _⟩ => ⟨S192x1, .f32⟩
  | .hbm, ⟨18, _⟩ => ⟨S_, .f32⟩
  | .hbm, ⟨19, _⟩ => ⟨S_, .f32⟩
  | .hbm, ⟨20, _⟩ => ⟨S64, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S_, .f32⟩
  | .local _ .vmem, ⟨0, _⟩ => ⟨S16x115200, .f32⟩
  | .local _ .vmem, ⟨1, _⟩ => ⟨S16x115200, .f32⟩
  | .local _ .vmem, ⟨2, _⟩ => ⟨S16x1, .f32⟩
  | .local _ .vmem, ⟨3, _⟩ => ⟨S16x1, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | _, _ => ⟨S64x3x480x480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x115200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S64 : S_.BroadcastsInDim S64 (![] : Fin 0 → Fin S64.rank)
  bcast_S3_S1x3_1 : S3.BroadcastsInDim S1x3 (![1] : Fin 1 → Fin S1x3.rank)
  bcast_S64_S64x1_0 : S64.BroadcastsInDim S64x1 (![0] : Fin 1 → Fin S64x1.rank)
  bcast_S1x3_S64x3_0_1 : S1x3.BroadcastsInDim S64x3 (![0, 1] : Fin 2 → Fin S64x3.rank)
  bcast_S64x1_S64x3_0_1 : S64x1.BroadcastsInDim S64x3 (![0, 1] : Fin 2 → Fin S64x3.rank)
  shapeCasts_S64x3x480x480_S192x230400 : S64x3x480x480.ShapeCasts S192x230400
  shapeCasts_S64x3_S192x1 : S64x3.ShapeCasts S192x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x115200_S16x115200_0_0 : ∀ a, (![0, 0] : Fin 2 → Nat) a + S16x115200.size a ≤ S16x115200.size a
  h_S16x115200 : 0 < S16x115200.numel
  shapeCasts_S16x115200_S16x115200 : S16x115200.ShapeCasts S16x115200
  reduces_S16x115200_S16 : S16x115200.Reduces [1] S16
  shapeCasts_S16_S16x1 : S16.ShapeCasts S16x1
  reducesTo_S192x1_S_d0_1 : S192x1.ReducesTo [0, 1] S_
  h_S_ : 0 < S_.numel
  natLt_1_32 : 1 < 32
  reducesTo_S64_S_d0 : S64.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x115200.size a ≤ S192x230400.size a
  hwx0_0 : ∀ i : grid0.Coords, EltTy.bits .f32 = 32 ∨ (Rect.block (s := S192x230400) S16x115200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S192x1.size a
  hwx0_1 : ∀ i : grid0.Coords, EltTy.bits .f32 = 32 ∨ (Rect.block (s := S192x1) S16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S192x1.size a
  hwx0_2 : ∀ i : grid0.Coords, EltTy.bits .f32 = 32 ∨ (Rect.block (s := S192x1) S16x1.size (cc0_transform_2 i) (hinb0_2 i)).WholeWords (EltTy.packing .f32)

variable [Facts₀]

abbrev win0_0 : Pipeline.Window sig grid0 :=
  Pipeline.Window.ofSpec (Memref.whole main_v12) S16x115200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x3x480x480 : Shape := ⟨4, ![64, 3, 480, 480]⟩
abbrev S64 : Shape := ⟨1, ![64]⟩
abbrev S_ : Shape := ⟨0, ![]⟩
abbrev S3 : Shape := ⟨1, ![3]⟩
abbrev S1x3 : Shape := ⟨2, ![1, 3]⟩
abbrev S64x1 : Shape := ⟨2, ![64, 1]⟩
abbrev S64x3 : Shape := ⟨2, ![64, 3]⟩
abbrev S64x3x1x1 : Shape := ⟨4, ![64, 3, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S64x3x480x480, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S3, .i32⟩
  | .hbm, ⟨6, _⟩ => ⟨S1x3, .i32⟩
  | .hbm, ⟨7, _⟩ => ⟨S64x1, .i32⟩
  | .hbm, ⟨8, _⟩ => ⟨S64x3, .i32⟩
  | .hbm, ⟨9, _⟩ => ⟨S64x3, .i32⟩
  | .hbm, ⟨10, _⟩ => ⟨S64x3, .i1⟩
  | .hbm, ⟨11, _⟩ => ⟨S64x1, .i1⟩
  | .hbm, ⟨12, _⟩ => ⟨S64x3, .i1⟩
  | .hbm, ⟨13, _⟩ => ⟨S64x3, .i1⟩
  | .hbm, ⟨14, _⟩ => ⟨S64x3, .f32⟩
  | .hbm, ⟨15, _⟩ => ⟨S64x3x480x480, .f32⟩
  | .hbm, ⟨16, _⟩ => ⟨S64x3x480x480, .f32⟩
  | .hbm, ⟨17, _⟩ => ⟨S_, .f32⟩
  | .hbm, ⟨18, _⟩ => ⟨S64x3x480x480, .f32⟩
  | .hbm, ⟨19, _⟩ => ⟨S64x3x480x480, .f32⟩
  | .hbm, ⟨20, _⟩ => ⟨S_, .f32⟩
  | .hbm, ⟨21, _⟩ => ⟨S64x3x480x480, .f32⟩
  | .hbm, ⟨22, _⟩ => ⟨S64x3x480x480, .f32⟩
  | .hbm, ⟨23, _⟩ => ⟨S64x3x1x1, .f32⟩
  | .hbm, ⟨24, _⟩ => ⟨S64x3x480x480, .f32⟩
  | .hbm, ⟨25, _⟩ => ⟨S64x3x480x480, .f32⟩
  | .hbm, ⟨26, _⟩ => ⟨S_, .f32⟩
  | .hbm, ⟨27, _⟩ => ⟨S_, .f32⟩
  | .hbm, ⟨28, _⟩ => ⟨S64, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .f32⟩
  | _, _ => ⟨S64x3x480x480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S3_S1x3_1 : S3.BroadcastsInDim S1x3 (![1] : Fin 1 → Fin S1x3.rank)
  bcast_S64_S64x1_0 : S64.BroadcastsInDim S64x1 (![0] : Fin 1 → Fin S64x1.rank)
  bcast_S1x3_S64x3_0_1 : S1x3.BroadcastsInDim S64x3 (![0, 1] : Fin 2 → Fin S64x3.rank)
  bcast_S64x1_S64x3_0_1 : S64x1.BroadcastsInDim S64x3 (![0, 1] : Fin 2 → Fin S64x3.rank)
  bcast_S_S64x3x480x480 : S_.BroadcastsInDim S64x3x480x480 (![] : Fin 0 → Fin S64x3x480x480.rank)
  bcast_S64x3_S64x3x1x1_0_1 : S64x3.BroadcastsInDim S64x3x1x1 (![0, 1] : Fin 2 → Fin S64x3x1x1.rank)
  bcast_S64x3x1x1_S64x3x480x480_0_1_2_3 : S64x3x1x1.BroadcastsInDim S64x3x480x480 (![0, 1, 2, 3] : Fin 4 → Fin S64x3x480x480.rank)
  reducesTo_S64x3x480x480_S_d0_1_2_3 : S64x3x480x480.ReducesTo [0, 1, 2, 3] S_
  h_S_ : 0 < S_.numel
  natLt_1_32 : 1 < 32
  reducesTo_S64_S_d0 : S64.ReducesTo [0] S_

variable [Facts₀]

class Facts : Prop extends Facts₀ where

variable [Facts]
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.MaskedSum.lean ====
/-
  The arithmetic shared by the two programs: a masked sum of sigmoids over a [64, 3, 480, 480] array.

  One program multiplies every sigmoid by its (sample, channel) mask entry and sums all 44,236,800 products.
  The other views the array as 192 rows of 230,400 entries, sums the sigmoids of each row in two halves of
  115,200 added in order to a zero, multiplies each row's sum by the row's mask entry, and sums the 192 products.
  The two totals agree on the extended reals because every term is a real number: a sigmoid is real at every
  extended real (0 at -inf, 1 at +inf), and the mask entries are assumed real; so the factor of a row may be
  moved inside the row's sum, and the row-major bijection between (row, position) and (sample, channel, y, x)
  re-indexes one sum into the other.
-/
import Idealize.ShloMosaic.PureOps.Ideal.Laws
import Idealize.ShloMosaic.Lib.ValueIdx
import Idealize.ShloMosaic.Lib.Pipeline.Value
import proofs.«177287_j81587198754830_2_alg».proof.Proof.LibERealSums

noncomputable section

open scoped BigOperators

namespace Cert.MaskedSum

open Idealize.ShloMosaic Idealize.ShloMosaic.ValueIdx Cert.LibERealSums

/-- The array of samples, channels and pixels. -/
abbrev SX : Shape := ⟨4, ![64, 3, 480, 480]⟩
/-- The same entries as 192 rows (sample, channel) of 230,400 pixels. -/
abbrev SF : Shape := ⟨2, ![192, 230400]⟩
/-- The mask, one entry per (sample, channel). -/
abbrev SM : Shape := ⟨2, ![64, 3]⟩
/-- The mask as a column of 192 rows. -/
abbrev SC : Shape := ⟨2, ![192, 1]⟩

/-- The sigmoid of an extended real is a real number: 0 at -inf, 1 at +inf, 1 / (1 + e^(-r)) at a real r. -/
theorem isFin_logistic (x : EReal) : IsFin (Ideal.logistic x) := by
  induction x using EReal.rec with
  | bot => rw [Ideal.logistic_bot]; exact isFin_zero
  | top => rw [Ideal.logistic_top]; exact isFin_one
  | coe r => rw [Ideal.logistic_coe]; exact isFin_coe _

/-- Position `k` of the lower half of a row. -/
abbrev lo (k : Fin 115200) : Fin 230400 := ⟨k.val, by have := k.isLt; omega⟩
/-- Position `k` of the upper half of a row. -/
abbrev hi (k : Fin 115200) : Fin 230400 := ⟨115200 + k.val, by have := k.isLt; omega⟩

/-- The sum of the sigmoids of row `r`, as it is accumulated: the lower half's sum added to a zero, then the
    upper half's sum. -/
def rowSum (X : SF.Idx → EReal) (r : Fin 192) : EReal :=
  (Ideal.ofBits .f32 0x00000000#32 + ∑ k : Fin 115200, Ideal.logistic (X (ix2 r (lo k))))
    + ∑ k : Fin 115200, Ideal.logistic (X (ix2 r (hi k)))

/-- The column of masked row sums: entry (r, 0) is row `r`'s sum times the row's mask entry. -/
def rowTotal (X : SF.Idx → EReal) (M : SC.Idx → EReal) : SC.Idx → EReal :=
  fun j => rowSum X ⟨(j 0).val, (j 0).isLt⟩ * M j

/-- A sum over the 230,400 positions of a row is the sum over its lower half plus the sum over its upper half. -/
theorem sum_row_halves {M : Type*} [AddCommMonoid M] (f : Fin 230400 → M) :
    ∑ n : Fin 230400, f n = (∑ k : Fin 115200, f (lo k)) + (∑ k : Fin 115200, f (hi k)) :=
  Fin.sum_univ_add (a := 115200) (b := 115200) f

/-- A row's accumulated sum is the sum of the sigmoids of all its entries. -/
theorem rowSum_eq (X : SF.Idx → EReal) (r : Fin 192) :
    rowSum X r = ∑ n : Fin 230400, Ideal.logistic (X (ix2 r n)) := by
  unfold rowSum
  rw [Ideal.ofBits_zero_f32, zero_add]
  exact (sum_row_halves fun n => Ideal.logistic (X (ix2 r n))).symm

/-- The (sample, channel) of an index of the array. -/
abbrev chan (i : SX.Idx) : SM.Idx := ix2 (⟨(i 0).val, (i 0).isLt⟩ : Fin 64) (⟨(i 1).val, (i 1).isLt⟩ : Fin 3)

/-- The row-major bijection sends entry `j` of the 192-row view to an entry of the array whose (sample, channel)
    is row `j 0`, read row-major in the [64, 3] mask. -/
theorem row_of_reshape (h1 : SX.ShapeCasts SF) (j : SF.Idx) :
    (SM.rowMajor (chan (Shape.reshapeEquiv h1 j))).val = (SC.rowMajor (ix2 (⟨(j 0).val, (j 0).isLt⟩ : Fin 192) (0 : Fin 1))).val := by
  have e := Shape.rowMajor_reshapeEquiv h1 j
  rw [Shape.rowMajor_val_four, Shape.rowMajor_val_two] at e
  rw [Shape.rowMajor_val_two, Shape.rowMajor_val_two]
  generalize Shape.reshapeEquiv h1 j = i at e
  have a2 : (i 2).val < 480 := (i 2).isLt
  have a3 : (i 3).val < 480 := (i 3).isLt
  have b1 : (j 1).val < 230400 := (j 1).isLt
  have e' : (((i 0).val * 3 + (i 1).val) * 480 + (i 2).val) * 480 + (i 3).val = (j 0).val * 230400 + (j 1).val := e
  show (i 0).val * 3 + (i 1).val = (j 0).val * 1 + 0
  omega

/-- THE TOTALS AGREE: the 192 masked row sums add up to the sum, over every entry of the array, of its sigmoid
    times its (sample, channel)'s mask entry — for real mask entries. -/
theorem total_eq (x : SX.Idx → EReal) (mk : SM.Idx → EReal) (hmk : ∀ i, IsFin (mk i))
    (h1 : SX.ShapeCasts SF) (h2 : SM.ShapeCasts SC) :
    ∑ j : SC.Idx, rowTotal (shapeCast SF x h1) (shapeCast SC mk h2) j
      = ∑ i : SX.Idx, Ideal.logistic (x i) * mk (chan i) := by
  -- the column's 192 entries, one per row
  rw [sum_idx2]
  have hrow : ∀ r : Fin 192, ∑ q : Fin 1, rowTotal (shapeCast SF x h1) (shapeCast SC mk h2) (ix2 r q)
      = ∑ n : Fin 230400, Ideal.logistic (shapeCast SF x h1 (ix2 r n)) * shapeCast SC mk h2 (ix2 r (0 : Fin 1)) := by
    intro r
    rw [Fin.sum_univ_one]
    show rowSum (shapeCast SF x h1) r * shapeCast SC mk h2 (ix2 r (0 : Fin 1)) = _
    rw [rowSum_eq]
    exact sum_mul_of_isFin _ _ _ (fun n => isFin_logistic _) (hmk _)
  rw [Finset.sum_congr rfl fun r _ => hrow r]
  -- back to one sum over the 192-row view, then through the row-major bijection
  rw [← sum_idx2 (fun j : SF.Idx => Ideal.logistic (shapeCast SF x h1 j)
      * shapeCast SC mk h2 (ix2 (⟨(j 0).val, (j 0).isLt⟩ : Fin 192) (0 : Fin 1)))]
  rw [← Equiv.sum_comp (Shape.reshapeEquiv h1) fun i : SX.Idx => Ideal.logistic (x i) * mk (chan i)]
  refine Finset.sum_congr rfl fun j _ => ?_
  show Ideal.logistic (x (Shape.reshapeEquiv h1 j)) * _ = _
  rw [shapeCast_apply mk h2 _ (chan (Shape.reshapeEquiv h1 j)) (row_of_reshape h1 j)]

end Cert.MaskedSum

end
-- ==== Proof.KernelPieces.lean ====
/-
  What one run of the kernel body leaves behind, as values.

  The body keeps a running column of 16 row sums in a scratch buffer. At a grid point of the first column tile it
  stores a zero column, reads it back, and stores that column plus the tile's row sums of sigmoids. At a point of the
  second column tile it reads what the point before left, stores it plus this tile's row sums, reads that back, and
  stores its product with the mask column into the output block. Each buffer is written by stores that cover it
  whole, so what it ends holding is the last store's value: the body's arithmetic applied to the blocks loaded.
-/
import proofs.«177287_j81587198754830_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The corner of a whole block. -/
theorem hz : (![0, 0] : Fin 2 → Nat) = fun _ => 0 := funext fun a => by fin_cases a <;> rfl

/-- FIRST COLUMN TILE: the scratch column ends at the zero column plus this tile's row sums. -/
theorem scratch_first (c : Dev nD) (i : grid0.Coords) (arg2 : Memref sig .tc .vmem S16x115200 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S16x1 .f32) (harg5 : arg5.IsWhole) (hc0 : cond0_0 i) (hc1 : ¬cond0_1 i)
    (x0 : Vec F S16x115200 .f32) (x1 : Vec F S16x1 .f32) :
    sout0_A_0 c i arg2 harg2 arg3 harg3 arg4 harg4 arg5 harg5 hc0 hc1 x0 x1 = k0_pay2 x0 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S16x1) hz, View.readCov_unit_zero (S := S16x1) _ hz]
  simp only [View.readAt_eq_ld, harg2.read_unread, View.ld_unit_zero (S := S16x115200) hz, View.ld_unit_zero (S := S16x1) hz]

/-- SECOND COLUMN TILE: the scratch column ends at what the point before left plus this tile's row sums. -/
theorem scratch_second (c : Dev nD) (i : grid0.Coords) (arg2 : Memref sig .tc .vmem S16x115200 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S16x1 .f32) (harg5 : arg5.IsWhole) (hc0 : ¬cond0_0 i) (hc1 : cond0_1 i)
    (x0 : Vec F S16x115200 .f32) (x1 : Vec F S16x1 .f32) (xs0 : Vec F S16x1 .f32) :
    sout0_B_0 c i arg2 harg2 arg3 harg3 arg4 harg4 arg5 harg5 hc0 hc1 x0 x1 xs0 = k0_pay2 x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg5.read_unread, View.ld_unit_zero (S := S16x115200) hz, View.ld_unit_zero (S := S16x1) hz]

/-- SECOND COLUMN TILE: the output block ends at that scratch column times the mask column. -/
theorem out_second (c : Dev nD) (i : grid0.Coords) (arg2 : Memref sig .tc .vmem S16x115200 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S16x1 .f32) (harg5 : arg5.IsWhole) (hc0 : ¬cond0_0 i) (hc1 : cond0_1 i)
    (x0 : Vec F S16x115200 .f32) (x1 : Vec F S16x1 .f32) (xs0 : Vec F S16x1 .f32) :
    out0_B_2 c i arg2 harg2 arg3 harg3 arg4 harg4 arg5 harg5 hc0 hc1 x0 x1 xs0 = k0_pay3 (k0_pay2 x0 xs0) x1 := by
  unfold out0_B_2
  rw [View.read_writes_eq_canon _ _ _ (cover0_B_2 c i arg2 harg2 arg3 harg3 arg4 harg4 arg5 harg5 hc0 hc1 x0 x1 xs0)]
  unfold kernelRun0_B
  dsimp only
  sl_unfold_words
  rw [View.canon_unit_zero hz, View.readCov_unit_zero (S := S16x1) _ hz]
  simp only [View.readAt_eq_ld, harg2.read_unread, harg3.read_unread, harg5.read_unread, View.ld_unit_zero (S := S16x115200) hz, View.ld_unit_zero (S := S16x1) hz]

end Cert.KernelIdeal.Pieces

end
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.KernelPayload.lean ====
/-
  The kernel body's arithmetic, read entry by entry on the extended reals.

  The zero column is the f32 zero word in every entry. The accumulation step adds, to entry (p, 0) of the column
  carried so far, the sum over the 115,200 entries of row p of the tile of their sigmoids (the lane reduction over
  the tile's last axis, kept as a column). The final step multiplies entry (p, 0) of the accumulated column by
  entry (p, 0) of the mask column.
-/
import proofs.«177287_j81587198754830_2_alg».proof.Proof.Gen.KernelIdeal.Skeleton
import proofs.«177287_j81587198754830_2_alg».proof.Proof.LibRowReduce
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Payload

open Cert.KernelIdeal Cert.KernelIdeal.Gen

/-- The zero column: the f32 zero word everywhere. -/
theorem zero_column_apply (p : Fin 16) (q : Fin 1) :
    k0_pay1 (F := Ideal) (ix2 p q) = Ideal.ofBits .f32 0x00000000#32 := by
  unfold k0_pay1
  rw [shapeCast_self]
  rfl

/-- The accumulation step at row `p`: the carried entry plus the sum of the sigmoids of the tile's row `p`. -/
theorem accumulate_apply (x : Vec Ideal S16x115200 .f32) (v : Vec Ideal S16x1 .f32) (p : Fin 16) (q : Fin 1) :
    k0_pay2 x v (ix2 p q) = v (ix2 p q) + ∑ k : Fin 115200, Ideal.logistic (x (ix2 p k)) := by
  unfold k0_pay2
  rw [shapeCast_self, shapeCast_self]
  refine congrArg (v (ix2 p q) + ·) ?_
  refine (RowReduce.shapeCast_column_apply _ _ p q).trans ?_
  exact RowReduce.multiReduction_add_row (logistic x) _ _ _ _ p

/-- The final step at row `p`: the accumulated entry times the mask entry. -/
theorem masked_apply (a b : Vec Ideal S16x1 .f32) (p : Fin 16) (q : Fin 1) :
    k0_pay3 a b (ix2 p q) = a (ix2 p q) * b (ix2 p q) := by
  unfold k0_pay3
  rw [shapeCast_self]
  rfl

end Cert.KernelIdeal.Payload

end
-- ==== Proof.KernelBlocks.lean ====
/-
  From the grid's blocks to the whole column the kernel writes.

  The grid is 12 row blocks by 2 column tiles, visited row block by row block, the two column tiles of a row block
  one after the other. At the second tile's point the output block of 16 rows is written back: entry (p, 0) holds
  (zero + the sum of the sigmoids of the lower half of row 16·b + p) + the sum over the upper half, times the mask
  entry of that row. So the 12 written blocks tile the [192, 1] column, and the column ends holding, row by row,
  the row's accumulated sum times the row's mask entry.
-/
import proofs.«177287_j81587198754830_2_alg».proof.Proof.Gen.KernelIdeal.Frame
import proofs.«177287_j81587198754830_2_alg».proof.Proof.KernelPieces
import proofs.«177287_j81587198754830_2_alg».proof.Proof.KernelPayload
import proofs.«177287_j81587198754830_2_alg».proof.Proof.MaskedSum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.MaskedSum

variable (m : (ℓ : Loc nD τ sig) → Buf (Elt Ideal) ℓ) (ρ : Dev nD → PrngReg)

/-- The point before a second-tile point. -/
abbrev prev (t : Fin cfg0.N) : Fin cfg0.N := ⟨t.val - 1, Nat.lt_of_le_of_lt (Nat.sub_le _ _) t.isLt⟩

/-- One row of a second-tile point's output block, from the blocks the two points of its row block load: if row
    `p` of the first point's tile is the lower half of row `r` of the 192-row view, row `p` of the second point's
    tile its upper half, and entry (p, 0) of the mask block the mask entry of row `r`, then entry (p, 0) of the
    output block is row `r`'s accumulated sum times its mask entry. -/
theorem block_row (X : SF.Idx → EReal) (M : SC.Idx → EReal) (bLo bHi : Vec Ideal S16x115200 .f32) (bM : Vec Ideal S16x1 .f32)
    (r : Fin 192) (p : Fin 16) (q : Fin 1)
    (eLo : ∀ k : Fin 115200, bLo (ix2 p k) = X (ix2 r (lo k)))
    (eHi : ∀ k : Fin 115200, bHi (ix2 p k) = X (ix2 r (hi k)))
    (eM : bM (ix2 p q) = M (ix2 r (0 : Fin 1))) :
    k0_pay3 (k0_pay2 bHi (k0_pay2 bLo (k0_pay1 (F := Ideal)))) bM (ix2 p q) = rowSum X r * M (ix2 r (0 : Fin 1)) := by
  rw [Payload.masked_apply, Payload.accumulate_apply, Payload.accumulate_apply, Payload.zero_column_apply, eM]
  unfold rowSum
  simp only [eLo, eHi]

/-- What a second-tile point leaves in the output's staging buffer: the mask block times the column accumulated
    over the two tiles, from the zero column. -/
theorem out_second_tile (c : Dev nD) (t : Fin cfg0.N) (h1 : t.val % 2 = 1) :
    (outsAt0 m c t.val t.isLt).1
      = k0_pay3 (k0_pay2 (iblk m c 0 t) (k0_pay2 (iblk m c 0 (prev t)) (k0_pay1 (F := Ideal)))) (iblk m c 1 t) := by
  have h0 : ¬t.val % 2 = 0 := by omega
  have hp0 : (prev t).val % 2 = 0 := by show (t.val - 1) % 2 = 0; omega
  have hp1 : ¬(prev t).val % 2 = 1 := by show ¬(t.val - 1) % 2 = 1; omega
  have hprev : (outsAt0 m c (t.val - 1) (Nat.lt_of_le_of_lt (Nat.sub_le _ _) t.isLt)).2
      = k0_pay2 (iblk m c 0 (prev t)) (k0_pay1 (F := Ideal)) := by
    show (outsAt0 m c (prev t).val (prev t).isLt).2 = _
    rw [outsAt0_A m c (prev t) hp0 hp1]
    exact Pieces.scratch_first c (grid0.coords (prev t)) (ms0_0 (prev t)) (hs0_0 (prev t)) (ms0_1 (prev t)) (hs0_1 (prev t))
      (ms0_2 (prev t)) (hs0_2 (prev t)) scM0_0 (Memref.isWhole_whole _) ((hcond0_0 (prev t)).mpr hp0)
      (fun h => hp1 ((hcond0_1 (prev t)).mp h)) (iblk m c 0 (prev t)) (iblk m c 1 (prev t))
  rw [outsAt0_B m c t h0 h1]
  dsimp only
  rw [hprev]
  exact Pieces.out_second c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (k0_pay2 (iblk m c 0 (prev t)) (k0_pay1 (F := Ideal)))

/-- The printed index maps at a second-tile point `t`, decided over the grid: the tile read there is column tile 1
    of the output's row block, the tile read at the point before is column tile 0 of the same row block, the mask
    block is the row block's, and there are 12 row blocks. -/
theorem index_facts : ∀ t : Fin cfg0.N, t.val % 2 = 1 →
    win0_0.index t (0 : Fin 2) = win0_2.index t (0 : Fin 2) ∧ win0_0.index t (1 : Fin 2) = 1
    ∧ win0_0.index (prev t) (0 : Fin 2) = win0_2.index t (0 : Fin 2) ∧ win0_0.index (prev t) (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 11 :=
  (by decide +kernel : ∀ t : Fin grid0.N, _)

/-- Every row block is some second-tile point's. -/
theorem row_block_onto : ∀ b : Fin 12, ∃ t : Fin cfg0.N, t.val % 2 = 1 ∧ win0_2.index t = ![b.val, 0] :=
  (by decide +kernel : ∀ b : Fin 12, ∃ t : Fin grid0.N, t.val % 2 = 1 ∧ win0_2.index t = ![b.val, 0])

/-- WHAT A WRITING POINT WRITES BACK is its block of the column of masked row sums of the two arrays the region
    finds: the 192-row view of the input and the mask column. -/
theorem flushed_eq (c : Dev nD) (t : Fin cfg0.N) (hf : (cfg0.win 2).flush t = true) :
    (dats m 0 c).flushed 2 t
      = ((cfg0.win 2).blk t).view.read (Elt Ideal) (rowTotal (V m c main_v12) (V m c main_v13)) := by
  have h1 : t.val % 2 = 1 := (flush0_2 t).mp hf
  obtain ⟨e00, e01, ep0, ep1, e10, e11, e21, e2b⟩ := index_facts t h1
  show (cfg0.win 2).cut (grid0.coords t) ((dats m 0 c).after 2 t) = _
  rw [after0_2, out_second_tile m c t h1]
  funext j
  obtain ⟨p, q, rfl⟩ : ∃ (p : Fin 16) (q : Fin 1), j = ix2 p q := ⟨j 0, j 1, eq_ix2 j⟩
  have hp : p.val < 16 := p.isLt
  have hq : q.val < 1 := q.isLt
  have hr : win0_2.index t (0 : Fin 2) * 16 + p.val < 192 := by omega
  rw [View.read_apply]
  show _ = rowTotal (V m c main_v12) (V m c main_v13) (((cfg0.win 2).blk t).view.emb (ix2 p q))
  refine (block_row (V m c main_v12) (V m c main_v13) _ _ _ ⟨win0_2.index t (0 : Fin 2) * 16 + p.val, hr⟩ p q ?_ ?_ ?_).trans ?_
  · intro k
    show V m c main_v12 (((cfg0.win 0).blk (prev t)).view.emb (ix2 p k)) = V m c main_v12 (ix2 _ (lo k))
    refine congrArg (V m c main_v12) (funext fun a => Fin.ext ?_)
    match a with
    | ⟨0, _⟩ => show win0_0.index (prev t) (0 : Fin 2) * 16 + 1 * p.val = win0_2.index t (0 : Fin 2) * 16 + p.val; omega
    | ⟨1, _⟩ => show win0_0.index (prev t) (1 : Fin 2) * 115200 + 1 * k.val = k.val; omega
  · intro k
    show V m c main_v12 (((cfg0.win 0).blk t).view.emb (ix2 p k)) = V m c main_v12 (ix2 _ (hi k))
    refine congrArg (V m c main_v12) (funext fun a => Fin.ext ?_)
    match a with
    | ⟨0, _⟩ => show win0_0.index t (0 : Fin 2) * 16 + 1 * p.val = win0_2.index t (0 : Fin 2) * 16 + p.val; omega
    | ⟨1, _⟩ => show win0_0.index t (1 : Fin 2) * 115200 + 1 * k.val = 115200 + k.val; omega
  · show V m c main_v13 (((cfg0.win 1).blk t).view.emb (ix2 p q)) = V m c main_v13 (ix2 _ (0 : Fin 1))
    refine congrArg (V m c main_v13) (funext fun a => Fin.ext ?_)
    match a with
    | ⟨0, _⟩ => show win0_1.index t (0 : Fin 2) * 16 + 1 * p.val = win0_2.index t (0 : Fin 2) * 16 + p.val; omega
    | ⟨1, _⟩ => show win0_1.index t (1 : Fin 2) * 1 + 1 * q.val = 0; omega
  · have hemb : ((cfg0.win 2).blk t).view.emb (ix2 p q)
        = ix2 (⟨win0_2.index t (0 : Fin 2) * 16 + p.val, hr⟩ : Fin 192) (0 : Fin 1) := by
      funext a; apply Fin.ext
      match a with
      | ⟨0, _⟩ => show win0_2.index t (0 : Fin 2) * 16 + 1 * p.val = win0_2.index t (0 : Fin 2) * 16 + p.val; omega
      | ⟨1, _⟩ => show win0_2.index t (1 : Fin 2) * 1 + 1 * q.val = 0; omega
    rw [hemb]
    rfl

/-- Every row of the column is in some writing point's block: row `r` in row block `r / 16`. -/
theorem covered (i : S192x1.Idx) :
    ∃ t : Fin cfg0.N, (cfg0.win 2).flush t = true ∧ i ∈ ((cfg0.win 2).blk t).view.set := by
  have hi0 : (i 0).val < 192 := (i 0).isLt
  have hi1 : (i 1).val < 1 := (i 1).isLt
  obtain ⟨t, h1, ht⟩ := row_block_onto ⟨(i 0).val / 16, by omega⟩
  have q0 : win0_2.index t (0 : Fin 2) = (i 0).val / 16 := congrFun ht 0
  have q1 : win0_2.index t (1 : Fin 2) = 0 := congrFun ht 1
  refine ⟨t, (flush0_2 t).mpr h1, ?_⟩
  show i ∈ ((View.whole main_v14).slice (win0_2.rect t)).set
  rw [View.set_slice_whole, Rect.mem_set_unit]
  intro a
  match a with
  | ⟨0, _⟩ =>
    show win0_2.index t (0 : Fin 2) * 16 ≤ (i 0).val ∧ (i 0).val < win0_2.index t (0 : Fin 2) * 16 + 16
    omega
  | ⟨1, _⟩ =>
    show win0_2.index t (1 : Fin 2) * 1 ≤ (i 1).val ∧ (i 1).val < win0_2.index t (1 : Fin 2) * 1 + 1
    omega

/-- THE COLUMN AFTER THE RUN: row by row, the row's accumulated sum of sigmoids times the row's mask entry. -/
theorem column_final (c : Dev nD) :
    (dats m 0 c).arrAt 2 cfg0.N = rowTotal (V m c main_v12) (V m c main_v13) :=
  (dats m 0 c).arrAt_eq_of_cover 2 (rowTotal (V m c main_v12) (V m c main_v13)) (flushed_eq m c) covered

end Cert.KernelIdeal.Blocks

end
-- ==== Proof.KernelRun.lean ====
/-
  The kernel program's result as one term of its two arguments.

  Before the grid the host views the input as 192 rows of 230,400 entries and builds the mask: entry (b, c) is 1 when
  sample b's label is nonzero and differs from channel c, else 0; it is handed to the grid as a column of 192 rows.
  After the grid the host adds up the column of 192 masked row sums from a zero and divides by the number of samples
  with a nonzero label times 691,200, plus one, converted to a float.
-/
import proofs.«177287_j81587198754830_2_alg».proof.Proof.Gen.KernelIdeal.Frame
import proofs.«177287_j81587198754830_2_alg».proof.Proof.KernelBlocks
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.MaskedSum Idealize.ShloMosaic.StableHlo

/-- Which samples have a nonzero label. -/
def nonzero (x1 : (⟨S64, .i32⟩ : BufTy).Contents (Elt Ideal)) : (⟨S64, .i1⟩ : BufTy).Contents (Elt Ideal) :=
  cmpi .ne x1 (broadcastInDim S64 ![] bcast_S_S64 (constantI S_ 32 0#32))

/-- The mask as bits: sample b's label is nonzero, and channel c differs from it. -/
def maskBits (x1 : (⟨S64, .i32⟩ : BufTy).Contents (Elt Ideal)) : (⟨S64x3, .i1⟩ : BufTy).Contents (Elt Ideal) :=
  andi (broadcastInDim S64x3 ![0, 1] bcast_S64x1_S64x3_0_1 (broadcastInDim S64x1 ![0] bcast_S64_S64x1_0 (nonzero x1)))
    (cmpi .ne (broadcastInDim S64x3 ![0, 1] bcast_S1x3_S64x3_0_1 (broadcastInDim S1x3 ![1] bcast_S3_S1x3_1 (iotaInDim S3 32 0)))
      (broadcastInDim S64x3 ![0, 1] bcast_S64x1_S64x3_0_1 (broadcastInDim S64x1 ![0] bcast_S64_S64x1_0 x1)))

/-- The mask as floats: 1 where the bit is set, 0 elsewhere. -/
def mask (x1 : (⟨S64, .i32⟩ : BufTy).Contents (Elt Ideal)) : (⟨S64x3, .f32⟩ : BufTy).Contents (Elt Ideal) :=
  uitofp (F := Ideal) .f32 (maskBits x1)

/-- The divisor: the count of samples with a nonzero label, times 691,200, plus one, as a float. -/
def divisor (x1 : (⟨S64, .i32⟩ : BufTy).Contents (Elt Ideal)) : (⟨S_, .f32⟩ : BufTy).Contents (Elt Ideal) :=
  sitofp (F := Ideal) .f32 (addi (muli (Host.reduce IntOp.addi (extui 32 (nonzero x1) natLt_1_32) (constantI S_ 32 0#32) reducesTo_S64_S_d0 h_S_)
    (constantI S_ 32 691200#32)) (constantI S_ 32 1#32))

/-- The program's result: the column of masked row sums added up from a zero, over the divisor. -/
def result (x0 : (⟨S64x3x480x480, .f32⟩ : BufTy).Contents (Elt Ideal)) (x1 : (⟨S64, .i32⟩ : BufTy).Contents (Elt Ideal)) :
    (⟨S_, .f32⟩ : BufTy).Contents (Elt Ideal) :=
  Host.divf (F := Ideal)
    (Host.reduceAdd (F := Ideal)
      (rowTotal (shapeCast S192x230400 x0 shapeCasts_S64x3x480x480_S192x230400) (shapeCast S192x1 (mask x1) shapeCasts_S64x3_S192x1))
      (constant (F := Ideal) S_ .f32 0x00000000#32) reducesTo_S192x1_S_d0_1 h_S_)
    (divisor x1)

variable (m : (ℓ : Loc nD τ sig) → Buf (Elt Ideal) ℓ) (ρ : Dev nD → PrngReg)

/-- The region finds the input viewed as 192 rows. -/
theorem entry_rows (c : Dev nD) :
    (V m c main_v12 : S192x230400.Idx → EReal)
      = shapeCast S192x230400 (m ((c : Thread nD τ).loc main_arg0)) shapeCasts_S64x3x480x480_S192x230400 := by
  show StableHlo.after hostOps0 (fun b => m (c, b)) (Proc.devRef .tc main_v12) = _
  after_results
  rfl

/-- The region finds the mask as a column. -/
theorem entry_mask (c : Dev nD) :
    (V m c main_v13 : S192x1.Idx → EReal)
      = shapeCast S192x1 (mask (m ((c : Thread nD τ).loc main_arg1))) shapeCasts_S64x3_S192x1 := by
  show StableHlo.after hostOps0 (fun b => m (c, b)) (Proc.devRef .tc main_v13) = _
  after_results
  rfl

/-- The region finds the samples with a nonzero label where the host left them. -/
theorem entry_nonzero (c : Dev nD) :
    V m c main_v1 = nonzero (m ((c : Thread nD τ).loc main_arg1)) := by
  show StableHlo.after hostOps0 (fun b => m (c, b)) (Proc.devRef .tc main_v1) = _
  after_results
  rfl

/-- THE TAIL: after the grid the program's result buffer holds the column the grid wrote, added up from a zero,
    over the divisor. -/
theorem tail_result (c : Dev nD) :
    Pipeline.afterTail₀ cfgs (dats m) 0 (V0 m) [hostOps1] c main_v21
      = result (m ((c : Thread nD τ).loc main_arg0)) (m ((c : Thread nD τ).loc main_arg1)) := by
  unfold Pipeline.afterTail₀
  show StableHlo.after hostOps1 _ (Proc.devRef .tc main_v21) = _
  after_results
  have hcol : Pipeline.withArrays (cfgs 0).spec c (V0 m c) (fun w => (dats m 0 c).arrAt w (cfgs 0).N) (Proc.devRef .tc main_v14)
      = rowTotal (V m c main_v12) (V m c main_v13) :=
    (Pipeline.withArrays_arr spec0 launch0.win.arr_inj c _ _ 2).trans (Blocks.column_final m c)
  have hnz : Pipeline.withArrays (cfgs 0).spec c (V0 m c) (fun w => (dats m 0 c).arrAt w (cfgs 0).N) (Proc.devRef .tc main_v1)
      = nonzero (m ((c : Thread nD τ).loc main_arg1)) :=
    (Pipeline.withArrays_of_ne _ c (V0 m c) _ main_v1 (by exact (by decide : ∀ w, Pipeline.arrRef spec0 w ≠ main_v1))).trans
      (entry_nonzero m c)
  rw [hcol, hnz, entry_rows, entry_mask]
  rfl

/-- The program's result, entry by entry: the zero word plus the sum of the column of masked row sums, over the
    divisor. -/
theorem result_apply (x0 : (⟨S64x3x480x480, .f32⟩ : BufTy).Contents (Elt Ideal)) (x1 : (⟨S64, .i32⟩ : BufTy).Contents (Elt Ideal))
    (i : S_.Idx) :
    result x0 x1 i
      = Ideal.div (Ideal.ofBits .f32 0x00000000#32
          + ∑ j : S192x1.Idx, rowTotal (shapeCast S192x230400 x0 shapeCasts_S64x3x480x480_S192x230400)
              (shapeCast S192x1 (mask x1) shapeCasts_S64x3_S192x1) j)
        (divisor x1 i) := by
  unfold result
  show Ideal.div (Host.reduceAdd (F := Ideal) _ _ reducesTo_S192x1_S_d0_1 h_S_ i) _ = _
  refine congrArg (Ideal.div · (divisor x1 i)) ?_
  simp only [Host.reduceAdd, Ideal.hostReduceAdd_def]
  exact Ideal.hostReduceAdd_total reducesTo_S192x1_S_d0_1 (fun b => b.elim0) _ _ i

/-- The mask's entries are real numbers (0 or 1). -/
theorem isFin_mask (x1 : (⟨S64, .i32⟩ : BufTy).Contents (Elt Ideal)) (i : S64x3.Idx) : Cert.LibERealSums.IsFin (mask x1 i) :=
  Cert.LibERealSums.isFin_coe _

/-- THE RUN, READ: every weakly fair execution of the kernel program ends with its result buffer at `result` of the
    two arguments, and the arguments unchanged. -/
theorem run : θ_run defs (onTc (τ := τ) (main (F := Ideal))) ⟨m, fun _ => 0, ρ⟩ fun r => ∀ c : Dev nD,
      r.2.mem ((c.tc : Thread nD τ).loc main_v21) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v21 (Pipeline.mem_restRefs_of main_v21 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.ReferenceTotal.lean ====
/-
  The reference program's total, read entry by entry on the extended reals.

  The reference spells the sigmoid as 1 / (1 + exp(-x)) with the f32 word of one; on the extended reals that is the
  sigmoid itself. It broadcasts the [64, 3] mask over the pixels, so the factor at (b, c, y, x) is the mask entry at
  (b, c). Its sum over all four axes from the zero word is the zero word plus the sum over every entry.
-/
import proofs.«177287_j81587198754830_2_alg».proof.Proof.Gen.ReferenceIdeal.Read
import proofs.«177287_j81587198754830_2_alg».proof.Proof.MaskedSum

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read Cert.MaskedSum

/-- The f32 word 0x3F800000 is the number one. -/
theorem one_word : Ideal.ofBits .f32 0x3F800000#32 = 1 := by
  simp [Ideal.ofBits, Ideal.ieee, -EReal.coe_mul]; norm_num

/-- The two broadcasts of the mask read it at the entry's (sample, channel). -/
theorem chan_eq (j : S64x3x480x480.Idx) : idx_main_v18 (idx_main_v19 j) = chan j :=
  funext fun a => Fin.ext (by match a with | ⟨0, _⟩ => rfl | ⟨1, _⟩ => rfl)

/-- The product the reference sums, at an entry: the entry's sigmoid times its (sample, channel)'s mask entry. -/
theorem product_apply (x0 : (⟨S64x3x480x480, .f32⟩ : BufTy).Contents (Elt Ideal)) (x1 : (⟨S64, .i32⟩ : BufTy).Contents (Elt Ideal))
    (j : S64x3x480x480.Idx) :
    val_main_v20 (F := Ideal) x0 x1 j = Ideal.logistic (x0 j) * val_main_v11 (F := Ideal) x1 (chan j) := by
  rw [val_main_v20_apply, val_main_v17_apply, val_main_v16_apply, val_main_cst_0_apply, val_main_v15_apply, val_main_v14_apply,
    val_main_cst_apply, val_main_v13_apply, val_main_v12_apply, val_main_v19_apply, val_main_v18_apply, chan_eq]
  simp only [Ideal.mulf_def, Ideal.hostDivf_def, Ideal.addf_def, Ideal.hostUnary_exp_def, Ideal.hostNegf_def, Ideal.negf_def,
    Ideal.ofBits_def, one_word]
  rfl

/-- The reference's total: the zero word plus the sum over every entry of its sigmoid times its mask entry. -/
theorem total_apply (x0 : (⟨S64x3x480x480, .f32⟩ : BufTy).Contents (Elt Ideal)) (x1 : (⟨S64, .i32⟩ : BufTy).Contents (Elt Ideal))
    (i : S_.Idx) :
    val_main_v21 (F := Ideal) x0 x1 i
      = Ideal.ofBits .f32 0x00000000#32 + ∑ j : S64x3x480x480.Idx, Ideal.logistic (x0 j) * val_main_v11 (F := Ideal) x1 (chan j) := by
  rw [val_main_v21_apply]
  exact congrArg (Ideal.ofBits .f32 0x00000000#32 + ·) (Finset.sum_congr rfl fun j _ => product_apply x0 x1 j)

end Cert.ReferenceIdeal.RefValue

end
-- ==== Proof.lean ====
/-
  A masked mean of sigmoids, computed two ways.

  Both programs take an array x of shape [64, 3, 480, 480] and 64 integer labels. The mask entry of (sample b,
  channel c) is 1 when b's label is nonzero and differs from c, else 0. The result is the sum over every entry of
  sigmoid(x) times its (sample, channel)'s mask entry, divided by (the number of samples with a nonzero label)
  · 691,200 + 1.

  The reference multiplies entry by entry and sums all four axes at once. The kernel program views x as 192 rows of
  230,400 entries; a grid of 12 row blocks by 2 column tiles accumulates, for each row, the sum of the sigmoids of
  its lower half and then of its upper half into a column kept between the two tiles, multiplies the row's sum by
  the row's mask entry at the second tile, and the host adds up the 192 products.

  On the extended reals the two totals are equal (Proof/MaskedSum.lean): the sigmoid of any extended real is a real
  number and so is every mask entry, so a row's mask entry may be moved inside the row's sum, and the row-major
  correspondence between (row, position) and (sample, channel, y, x) turns one sum into the other. The mask and the
  divisor are the same operations of the labels in both programs. The precondition (finite inputs) is not needed
  for the equality and is not opened.

  The kernel program's value is read off its frame run: what each grid point leaves in the carried column and in the
  output block (Proof/KernelPieces.lean), the body's arithmetic entry by entry (Proof/KernelPayload.lean), the 12
  written blocks tiling the [192, 1] column (Proof/KernelBlocks.lean), and the host operations around the grid
  (Proof/KernelRun.lean). The reference's value is its run, read one operation at a time (Proof/ReferenceTotal.lean).
  The kernel's idealization is the kernel's own text read on the extended reals (no operation was rewritten), so the
  preservation claim is trivially true.
-/
import proofs.«177287_j81587198754830_2_alg».proof.Defs
import proofs.«177287_j81587198754830_2_alg».proof.Proof.Gen.Kernel
import proofs.«177287_j81587198754830_2_alg».proof.Proof.Gen.Kernel.Skeleton
import proofs.«177287_j81587198754830_2_alg».proof.Proof.Gen.Kernel.Launch
import proofs.«177287_j81587198754830_2_alg».proof.Proof.Gen.Kernel.Points
import proofs.«177287_j81587198754830_2_alg».proof.Proof.Gen.Kernel.Frame
import proofs.«177287_j81587198754830_2_alg».proof.Proof.Gen.KernelIdeal
import proofs.«177287_j81587198754830_2_alg».proof.Proof.Gen.KernelIdeal.Skeleton
import proofs.«177287_j81587198754830_2_alg».proof.Proof.Gen.KernelIdeal.Launch
import proofs.«177287_j81587198754830_2_alg».proof.Proof.Gen.KernelIdeal.Points
import proofs.«177287_j81587198754830_2_alg».proof.Proof.Gen.KernelIdeal.Frame
import proofs.«177287_j81587198754830_2_alg».proof.Proof.Gen.ReferenceIdeal
import proofs.«177287_j81587198754830_2_alg».proof.Proof.Gen.ReferenceIdeal.Run
import proofs.«177287_j81587198754830_2_alg».proof.Proof.Gen.ReferenceIdeal.Read
import proofs.«177287_j81587198754830_2_alg».proof.Proof.Gen.Pre_finite_inputs
import proofs.«177287_j81587198754830_2_alg».proof.Proof.MaskedSum
import proofs.«177287_j81587198754830_2_alg».proof.Proof.KernelRun
import proofs.«177287_j81587198754830_2_alg».proof.Proof.ReferenceTotal
import Idealize.ShloMosaic.Adequacy
import Idealize.ShloMosaic.Init

noncomputable section

namespace Cert.Proof

open Idealize.ShloMosaic Idealize.ShloMosaic.TcCoe Idealize.SL.Sem

/-- THE TWO RESULTS ARE ONE FUNCTION of the array and the labels: the reference's quotient of its total by the
    divisor is the kernel program's quotient of the added-up column by the same divisor, the two totals being equal
    sums of real numbers. -/
theorem results_agree (x0 : (⟨Cert.ReferenceIdeal.S64x3x480x480, .f32⟩ : BufTy).Contents (Elt Ideal))
    (x1 : (⟨Cert.ReferenceIdeal.S64, .i32⟩ : BufTy).Contents (Elt Ideal)) :
    Cert.ReferenceIdeal.Read.val_main_v27 (F := Ideal) x0 x1 = Cert.KernelIdeal.Run.result x0 x1 := by
  funext i
  rw [Cert.ReferenceIdeal.Read.val_main_v27_apply, Cert.KernelIdeal.Run.result_apply,
    Cert.ReferenceIdeal.RefValue.total_apply,
    Cert.MaskedSum.total_eq x0 (Cert.KernelIdeal.Run.mask x1) (Cert.KernelIdeal.Run.isFin_mask x1)]
  rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the array and the labels, both programs end with their result at the same function
    of them (`results_agree`), and their arguments unchanged. -/
theorem algebraic : Cert.algebraic_KernelIdeal_ReferenceIdeal := by
  intro m ρ m' ρ' _ hagree
  refine ⟨fun c => Cert.KernelIdeal.Run.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, results_agree, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
